-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x8 : Shape := ⟨3, ![4, 2048, 8]⟩
abbrev S_ : Shape := ⟨0, ![]⟩

class Facts : Prop where
  bcast_S_S4x2048x8 : S_.BroadcastsInDim S4x2048x8 (![] : Fin 0 → Fin S4x2048x8.rank)
  reducesTo_S4x2048x8_S_d0_1_2 : S4x2048x8.ReducesTo [0, 1, 2] S_
  h_S_ : 0 < S_.numel

variable [Facts]

def fn {F : FTy → Type} [FloatOps F] (main_arg0 : FVec F S4x2048x8 .f32) : IVec S_ 1 :=
  let main_v0 : FVec F S4x2048x8 .f32 := Host.absf main_arg0
  let main_cst : FVec F S_ .f32 := constant S_ .f32 0x7F800000#32
  let main_v1 : FVec F S4x2048x8 .f32 := broadcastInDim S4x2048x8 ![] bcast_S_S4x2048x8 main_cst
  let main_v2 : IVec S4x2048x8 1 := cmpf .olt main_v0 main_v1
  let main_c : IVec S_ 1 := constantI S_ 1 1#1
  let main_v3 : IVec S_ 1 := (fun x v => Host.reduce IntOp.andi x v reducesTo_S4x2048x8_S_d0_1_2 h_S_) main_v2 main_c
  main_v3
-- ==== Kernel.lean ====
abbrev S4x2048x8 : Shape := ⟨3, ![4, 2048, 8]⟩
abbrev S4x8x2048 : Shape := ⟨3, ![4, 8, 2048]⟩
abbrev S1x8x512 : Shape := ⟨3, ![1, 8, 512]⟩
abbrev S1x8x2048 : Shape := ⟨3, ![1, 8, 2048]⟩
abbrev S8x512 : Shape := ⟨2, ![8, 512]⟩
abbrev S1x8x256 : Shape := ⟨3, ![1, 8, 256]⟩
abbrev S8x256 : Shape := ⟨2, ![8, 256]⟩
abbrev S8x1x512 : Shape := ⟨3, ![8, 1, 512]⟩
abbrev S8x256x1 : Shape := ⟨3, ![8, 256, 1]⟩
abbrev S8x256x512 : Shape := ⟨3, ![8, 256, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x8, .f32⟩
  | .hbm, ⟨1, _⟩ => ⟨S4x8x2048, .f32⟩
  | .hbm, ⟨2, _⟩ => ⟨S4x8x2048, .f32⟩
  | .hbm, ⟨3, _⟩ => ⟨S4x2048x8, .f32⟩
  | .local _ .vmem, ⟨0, _⟩ => ⟨S1x8x512, .f32⟩
  | .local _ .vmem, ⟨1, _⟩ => ⟨S1x8x512, .f32⟩
  | .local _ .vmem, ⟨2, _⟩ => ⟨S1x8x2048, .f32⟩
  | .local _ .vmem, ⟨3, _⟩ => ⟨S1x8x2048, .f32⟩
  | .local _ .vmem, ⟨4, _⟩ => ⟨S1x8x512, .f32⟩
  | .local _ .vmem, ⟨5, _⟩ => ⟨S1x8x512, .f32⟩
  | _, _ => ⟨S4x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v10 : BitVec 32 := Scalar.muli arg5 c256_i32
  v10
def k0_off1 (k0_t1 : Fin k0_t1_loop.trips) : Fin 3 → Nat :=
  let c0_7 : Index := 0#32
  let c0_8 : Index := 0#32
  let c0_i32 : BitVec 32 := 0#32
  let c1_i32 : BitVec 32 := 1#32
  let arg5 : BitVec 32 := Scf.iv c0_i32 c1_i32 k0_t1
  let c256_i32 : BitVec 32 := 256#32
  let v10 : BitVec 32 := Scalar.muli arg5 c256_i32
  let v11 : BitVec 32 := v10
  let v12 : Index := Scalar.indexCast v11
  ![0, 0, v12.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4x2048x8_S4x8x2048_0_2_1 : S4x2048x8.Transposes [0, 2, 1] S4x8x2048
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  h_S1x8x256 : 0 < S1x8x256.numel
  shapeCasts_S1x8x256_S8x256 : S1x8x256.ShapeCasts S8x256
  shapeCasts_S8x512_S8x1x512 : S8x512.ShapeCasts S8x1x512
  shapeCasts_S8x256_S8x256x1 : S8x256.ShapeCasts S8x256x1
  broadcasts_S8x1x512_S8x256x512 : S8x1x512.Broadcasts S8x256x512
  broadcasts_S8x256x1_S8x256x512 : S8x256x1.Broadcasts S8x256x512
  reduces_S8x256x512_S8x512 : S8x256x512.Reduces [1] S8x512
  shapeCasts_S8x512_S1x8x512 : S8x512.ShapeCasts S1x8x512
  transposes_S4x8x2048_S4x2048x8_0_2_1 : S4x8x2048.Transposes [0, 2, 1] S4x2048x8
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x8x256.size a ≤ S1x8x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S4x8x2048.size a
  hwx0_0 : ∀ i : grid0.Coords, EltTy.bits .f32 = 32 ∨ (Rect.block (s := S4x8x2048) S1x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S4x8x2048.size a
  hwx0_1 : ∀ i : grid0.Coords, EltTy.bits .f32 = 32 ∨ (Rect.block (s := S4x8x2048) S1x8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S4x8x2048.size a
  hwx0_2 : ∀ i : grid0.Coords, EltTy.bits .f32 = 32 ∨ (Rect.block (s := S4x8x2048) S1x8x512.size (cc0_transform_2 i) (hinb0_2 i)).WholeWords (EltTy.packing .f32)

variable [Facts₀]

abbrev win0_0 : Pipeline.Window sig grid0 :=
  Pipeline.Window.ofSpec (Memref.whole main_v0) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x8 : Shape := ⟨3, ![4, 2048, 8]⟩
abbrev S4x2048x1x8 : Shape := ⟨4, ![4, 2048, 1, 8]⟩
abbrev S4x1x2048x8 : Shape := ⟨4, ![4, 1, 2048, 8]⟩
abbrev S4x2048x2048x8 : Shape := ⟨4, ![4, 2048, 2048, 8]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x8, .f32⟩
  | .hbm, ⟨1, _⟩ => ⟨S4x2048x1x8, .f32⟩
  | .hbm, ⟨2, _⟩ => ⟨S4x1x2048x8, .f32⟩
  | .hbm, ⟨3, _⟩ => ⟨S4x2048x2048x8, .f32⟩
  | .hbm, ⟨4, _⟩ => ⟨S4x2048x2048x8, .f32⟩
  | .hbm, ⟨5, _⟩ => ⟨S4x2048x2048x8, .f32⟩
  | .hbm, ⟨6, _⟩ => ⟨S_, .f32⟩
  | .hbm, ⟨7, _⟩ => ⟨S4x2048x2048x8, .f32⟩
  | .hbm, ⟨8, _⟩ => ⟨S4x2048x2048x8, .f32⟩
  | .hbm, ⟨9, _⟩ => ⟨S4x2048x2048x8, .f32⟩
  | .hbm, ⟨10, _⟩ => ⟨S4x2048x2048x8, .f32⟩
  | .hbm, ⟨11, _⟩ => ⟨S_, .f32⟩
  | .hbm, ⟨12, _⟩ => ⟨S4x2048x2048x8, .f32⟩
  | .hbm, ⟨13, _⟩ => ⟨S4x2048x2048x8, .f32⟩
  | .hbm, ⟨14, _⟩ => ⟨S_, .f32⟩
  | .hbm, ⟨15, _⟩ => ⟨S4x2048x2048x8, .f32⟩
  | .hbm, ⟨16, _⟩ => ⟨S4x2048x2048x8, .f32⟩
  | .hbm, ⟨17, _⟩ => ⟨S_, .f32⟩
  | .hbm, ⟨18, _⟩ => ⟨S4x2048x8, .f32⟩
  | .hbm, ⟨19, _⟩ => ⟨S_, .f32⟩
  | .hbm, ⟨20, _⟩ => ⟨S4x2048x8, .f32⟩
  | .hbm, ⟨21, _⟩ => ⟨S4x2048x8, .f32⟩
  | _, _ => ⟨S4x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S4x2048x8_S4x2048x1x8_0_1_3 : S4x2048x8.BroadcastsInDim S4x2048x1x8 (![0, 1, 3] : Fin 3 → Fin S4x2048x1x8.rank)
  bcast_S4x2048x8_S4x1x2048x8_0_2_3 : S4x2048x8.BroadcastsInDim S4x1x2048x8 (![0, 2, 3] : Fin 3 → Fin S4x1x2048x8.rank)
  bcast_S4x2048x1x8_S4x2048x2048x8_0_1_2_3 : S4x2048x1x8.BroadcastsInDim S4x2048x2048x8 (![0, 1, 2, 3] : Fin 4 → Fin S4x2048x2048x8.rank)
  bcast_S4x1x2048x8_S4x2048x2048x8_0_1_2_3 : S4x1x2048x8.BroadcastsInDim S4x2048x2048x8 (![0, 1, 2, 3] : Fin 4 → Fin S4x2048x2048x8.rank)
  bcast_S_S4x2048x2048x8 : S_.BroadcastsInDim S4x2048x2048x8 (![] : Fin 0 → Fin S4x2048x2048x8.rank)
  reducesTo_S4x2048x2048x8_S4x2048x8_d2 : S4x2048x2048x8.ReducesTo [2] S4x2048x8
  h_S_ : 0 < S_.numel
  bcast_S_S4x2048x8 : S_.BroadcastsInDim S4x2048x8 (![] : Fin 0 → Fin S4x2048x8.rank)

variable [Facts₀]

class Facts : Prop extends Facts₀ where

variable [Facts]
-- ==== Proof.BodyBits.lean ====
import proofs.«115747_j37194416783875_2_alg».proof.Proof.Gen.Kernel.Loops
import proofs.«115747_j37194416783875_2_alg».proof.Proof.Gen.Kernel.Points
import proofs.«115747_j37194416783875_2_alg».proof.Proof.Gen.Kernel.Launch
import Idealize.ShloMosaic.Lib.Tactic
import Idealize.ShloMosaic.Lib.Pipeline.Frame
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on whole staging buffers

The body loads the query tile x0 (a 1x8x512 block), runs eight trips each loading one 1x8x256 chunk of the key
row x1 and adding that chunk's contribution to an 8x512 accumulator carried in registers, and stores the scaled
accumulator over the whole output block. The carried value after n trips is a function of x0, x1 and n alone;
the output block is its image under the final scaling. -/

/-- The offsets (0, 0, 0) are the zero offsets. -/
theorem hz3 : (![0, 0, 0] : Fin 3 → Nat) = fun _ => 0 := by
  funext a; match a with | ⟨0, _⟩ => rfl | ⟨1, _⟩ => rfl | ⟨2, _⟩ => rfl

/-- The accumulator before trip n, from the query tile x0 and the key row x1. -/
def accOf (c : Dev nD) (i : grid0.Coords) (arg2 : Memref sig .tc .vmem S1x8x512 .f32) (harg2 : arg2.IsWhole) (arg3 : Memref sig .tc .vmem S1x8x2048 .f32) (harg3 : arg3.IsWhole) (arg4 : Memref sig .tc .vmem S1x8x512 .f32) (harg4 : arg4.IsWhole)
    (x0 : Vec F S1x8x512 .f32) (x1 : Vec F S1x8x2048 .f32) (n : ℕ) : FVec F S8x512 .f32 :=
  st_k0_t1 (F := F) Variants.none c none i arg2 harg2 arg3 harg3 arg4 harg4 x0 (harg3.unread x1) (k0_pay1 (F := F)) n

/-- The output block: the accumulator after all eight trips, scaled. -/
def outOf (c : Dev nD) (i : grid0.Coords) (arg2 : Memref sig .tc .vmem S1x8x512 .f32) (harg2 : arg2.IsWhole) (arg3 : Memref sig .tc .vmem S1x8x2048 .f32) (harg3 : arg3.IsWhole) (arg4 : Memref sig .tc .vmem S1x8x512 .f32) (harg4 : arg4.IsWhole)
    (x0 : Vec F S1x8x512 .f32) (x1 : Vec F S1x8x2048 .f32) : Vec F S1x8x512 .f32 :=
  k0_pay3 (F := F) (accOf c i arg2 harg2 arg3 harg3 arg4 harg4 x0 x1 k0_t1_loop.trips)

set_option maxHeartbeats 1000000 in
/-- The body's triple: with the two input buffers at x0 and x1 and the output buffer at anything, the body runs
    and leaves the inputs as they were and the output at outOf: its one store covers the whole block. -/
theorem kernelRun (c : Dev nD) (i : grid0.Coords) (arg2 : Memref sig .tc .vmem S1x8x512 .f32) (harg2 : arg2.IsWhole) (arg3 : Memref sig .tc .vmem S1x8x2048 .f32) (harg3 : arg3.IsWhole) (arg4 : Memref sig .tc .vmem S1x8x512 .f32) (harg4 : arg4.IsWhole)
    (x0 : Vec F S1x8x512 .f32) (x1 : Vec F S1x8x2048 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ owns (c : Thread nD τ) arg4 fullShare (outOf c i arg2 harg2 arg3 harg3 arg4 harg4 x0 x1)) -∗ K ⟨⟩))
          ⊢ wp frame (wpE (defs₀ (F := F)) Variants.none c none) E (cc0__softrank_kernel i arg2 harg2 arg3 harg3 arg4 harg4) K := by
    intro E K
    simp only [cc0__softrank_kernel_eq_skeleton]; unfold cc0__softrank_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    rw [View.read_writes_eq_canon _ _ _ (View.cover_of_tiledL _ S1x8x512.size (by sl_kernel_rfl)), View.canon_unit_zero hz3]
    unfold outOf accOf
    simp only [View.readAt_eq_ld, harg2.read_unread, View.ld_unit_zero (S := S1x8x512) hz3]

end Cert.Kernel.Hand

end
-- ==== Proof.DatBits.lean ====
import proofs.«115747_j37194416783875_2_alg».proof.Proof.Gen.Kernel.Loops
import proofs.«115747_j37194416783875_2_alg».proof.Proof.Gen.Kernel.Points
import proofs.«115747_j37194416783875_2_alg».proof.Proof.Gen.Kernel.Launch
import proofs.«115747_j37194416783875_2_alg».proof.Proof.BodyBits
import Idealize.ShloMosaic.Lib.Tactic
import Idealize.ShloMosaic.Lib.Pipeline.Frame
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers around the region

The program transposes its argument into a [4, 8, 2048] array, hands that ONE array to the kernel twice (as the
query window, cut into 1x8x512 tiles, and as the key window, one whole 1x8x2048 row per batch), and transposes the
kernel's [4, 8, 2048] result back. -/

/-- Core c's buffers at launch, -/
abbrev V0 (c : Dev nD) : Valuation τ sig (Elt F) := fun b => m (c, b)
/-- and when the region is entered: the first transpose has run. -/
abbrev V1 (c : Dev nD) : Valuation τ sig (Elt F) := StableHlo.after hostOps0 (V0 m c)
/-- The same, read at a TensorCore reference. -/
abbrev V (c : Dev nD) (b : Ref sig .tc) : Buf (Elt F) ((c : Thread nD τ).loc b) := V1 m c b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point t, as the pipeline passes it to the body, and its wholeness. -/
abbrev ms0_0 (t : Fin cfg0.N) : Memref sig .tc .vmem S1x8x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x512 .f32 := win0_2.stage (cfg0.slots t 2)
abbrev hs0_2 (t : Fin cfg0.N) : (ms0_2 t).IsWhole := hstage0_2 ((cfg0.slots t 2).cast nbuf0_2)

/-- What the body leaves in the output window at point t: the output block of that point's query tile and key row. -/
def outBlk (c : Dev nD) (t : Fin cfg0.N) : Vec F S1x8x512 .f32 :=
  outOf c (grid0.coords t) (ms0_0 t) (hs0_0 t) (ms0_1 t) (hs0_1 t) (ms0_2 t) (hs0_2 t) (iblk m c 0 t) (iblk m c 1 t)

/-! ## The pipeline's proof data -/

/-- The proof data on core c. The arrays are the region-entry contents; the body leaves each input block in place and
    the output block at outBlk; the invariant is the scoped buffers no window stages (there is none); nothing is owed.
    The two input windows read ONE array, so each holds half of it: the left and the right half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk m c t := by dsimp only [dats]

/-- The query window's buffer holds its tile at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The key window's buffer holds its row at every point: it is fetched when the batch changes, and between two
    fetches the body leaves it in place and the row's index does not move. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' buffers hold their blocks, so the body's triple applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outBlk
  iintro ⟨HΦ, Ho, ⟨%d0, H0⟩, ⟨%d1, H1⟩, ⟨%d2, H2⟩⟩
  iapply ((kernelRun c (grid0.coords t) _ _ _ _ _ _ (iblk m c 0 t) (iblk m c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunBits.lean ====
import proofs.«115747_j37194416783875_2_alg».proof.Proof.Gen.Kernel.Loops
import proofs.«115747_j37194416783875_2_alg».proof.Proof.Gen.Kernel.Points
import proofs.«115747_j37194416783875_2_alg».proof.Proof.Gen.Kernel.Launch
import proofs.«115747_j37194416783875_2_alg».proof.Proof.DatBits
import Idealize.ShloMosaic.Lib.Tactic
import Idealize.ShloMosaic.Lib.Pipeline.Frame
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two host stretches write -/

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.unary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall]; exact (by simp only [StableHlo.unary_writes, Finset.singleton_subset_iff, List.mem_toFinset]; exact List.mem_map_of_mem (by decide))

/-! ## The buffers after the region and at the end -/

/-- The kernel's result array when the region ends: every block written back. -/
def outArr (c : Dev nD) : Buf (Elt F) ((c : Thread nD τ).loc main_v1) := (dats m 0 c).arrAt 2 cfg0.N

/-- Core c's buffers after the region: the result array written, everything else as the region found it, -/
abbrev V2 (c : Dev nD) : Valuation τ sig (Elt F) := Function.update (V1 m c) main_v1 (outArr m c)
/-- and at the end: the second transpose has run. -/
abbrev V3 (c : Dev nD) : Valuation τ sig (Elt F) := StableHlo.after hostOps1 (V2 m c)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v1] : List (Ref sig .tc))) : V2 m c r = V1 m c r := by
  simp only [V2, Function.update_of_ne (StableHlo.devRef_ne_of_ne (List.ne_of_not_mem_cons h) : (Proc.devRef .tc r : DevRef τ sig) ≠ Proc.devRef .tc main_v1)]
theorem V3_of (c : Dev nD) (r : Ref sig .tc) (h : r ∉ hostOps1_W) : V3 m c r = V2 m c r :=
  StableHlo.after_of_writes_sub hostOps1 _ hostOps1_writes h

/-- The argument reaches the end as launched: neither transpose writes it and the region does not stage it. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl

/-- After the region the result array holds what the kernel wrote. -/
theorem V2_main_v1 (c : Dev nD) : V2 m c main_v1 = outArr m c := by
  simp only [V2, Function.update_self]

/-! ## The unscoped buffers and the pipeline's arrays, one by one -/

/-- The unscoped buffers held at a valuation: the argument, its transpose, the kernel's result, the program's result. -/
theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold StableHlo.held
  exact bigSep_eq_bigSepL_of_eq [Proc.devRef .tc main_arg0, Proc.devRef .tc main_v0, Proc.devRef .tc main_v1, Proc.devRef .tc main_v2] (by decide) (by decide) _

/-- The pipeline's arrays at contents Fa: the transposed argument twice, at the two halves of the full share (one per
    input window), and the result array whole. -/
theorem arrays0_eq (c : Dev nD) (Fa : (w : Fin cfg0.W) → Buf (Elt F) ((cfg0.win w).arr.view.loc (c : Thread nD τ))) :
    (dats m 0 c).arrays Fa
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [bigSep_W0, (arr_whole0 0).set_eq_univ, (arr_whole0 2).set_eq_univ]
  rfl

/-! ## The launch: the program as host stretch, region, host stretch -/

/-- No core owes another anything: no level is assigned. -/
abbrev L0 : GSem nD τ sig → Finset Unit := fun _ => ∅
abbrev lv0 : GSem nD τ sig → Unit → ℕ := fun _ _ => 0
/-- No pipeline has a prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-- The first transpose, over the unscoped buffers from their launch contents. -/
def seg0 : HostSeg (Ix := Unit) (Name := ℕ) (U := UR sig nD τ) (Lvl := ℕ) (pcfgs (F := F)) defs₀ Variants.none L0 lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The second transpose, over the unscoped buffers as the region left them. -/
def seg2 : HostSeg (Ix := Unit) (Name := ℕ) (U := UR sig nD τ) (Lvl := ℕ) (pcfgs (F := F)) defs₀ Variants.none L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

set_option backward.isDefEq.respectTransparency.types false in
/-- The region. Entered from the buffers after the first transpose: the transposed argument is split into its two
    halves, one per input window; the result array goes to the output window whole; the argument and the program's
    result bypass the region. Left with the halves joined back (an input array ends as it began) and the result array
    at what the kernel wrote. -/
def reg0 : RegionSeg (pcfgs (F := F)) adm (dats m) () defs₀ Variants.none L0 lv0 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L0 lv0 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X _ := iprop(emp)
  Y _ := iprop(emp)
  Z c := iprop((((c : Thread nD τ).loc main_arg0) ↦{fullShare} V1 m c main_arg0) ∗ (((c : Thread nD τ).loc main_v2) ↦{fullShare} V1 m c main_v2))
  hentry c := by
    rw [held_eq, arrays0_eq]
    iintro ⟨⟨⟨Ha0, Hv0, Hv1, Hv2⟩, HO⟩, -, -⟩
    ihave Hs := (pointsTo_share (PosShare.mem_left_op_right fullShare)).1 $$ Hv0
    icases Hs with ⟨HL, HR⟩
    imodintro
    isplitl [HL HR Hv1]
    · isplitl [HL]; · iexact HL
      isplitl [HR]; · iexact HR
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0]; · iexact Ha0
    iexact Hv2
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [held_eq, arrays0_eq, (dats m 0 c).arrAt_in 0 rfl, (dats m 0 c).arrAt_in 1 rfl, V2_of m c main_arg0 (by decide), V2_of m c main_v0 (by decide), V2_of m c main_v2 (by decide), V2_main_v1]
    iintro ⟨⟨HL, HR, Hv1⟩, HO, -, ⟨Ha0, Hv2⟩⟩
    ihave Hv0 := (pointsTo_share (PosShare.mem_left_op_right fullShare)).2 $$ [HL HR]
    · isplitl [HL]; · iexact HL
      iexact HR
    imodintro
    isplitr [HO]
    · isplitl [Ha0]; · iexact Ha0
      isplitl [Hv0]; · iexact Hv0
      isplitl [Hv1]; · iexact Hv1
      iexact Hv2
    · unfold Pipeline.Dat.owesAt Pipeline.owesWithin
      icases HO with ⟨%W, -, HO⟩; iexists W; iexact HO

/-- The program as the list of the three. -/
abbrev segs : List (Seg (pcfgs (F := F)) adm (dats m) () defs₀ Variants.none L0 lv0) := [.host (seg0 m), .region (reg0 m), .host (seg2 m)]

/-- What a run ends with, per core: the argument as launched, and the program's result the transpose of what the kernel
    wrote. -/
def QC : PUnit × MemSt nD τ sig (Elt F) → Prop := fun r =>
  ∀ c : Dev nD, r.2.mem ((c : Thread nD τ).loc main_v2) = V3 m c main_v2
    ∧ r.2.mem ((c : Thread nD τ).loc main_arg0) = m ((c : Thread nD τ).loc main_arg0)

set_option backward.isDefEq.respectTransparency.types false in
/-- From any memory with zero counters every weakly fair execution of the program terminates, nothing faulting, the
    argument unchanged and the result buffer at the second transpose of the kernel's result array. -/
theorem run_main : θ_run defs (onTc (τ := τ) (main (F := F))) ⟨m, fun _ => 0, ρ⟩ (QC m) :=
  Pipeline.θ_run_regions_kit (pcfgs (F := F)) adm (dats m) () cellOf_inj emb₁ defs₀ Variants.none L0 lv0 m ρ main (segs m)
    (fun c Q => by rw [main_segs adm (dats m) () Variants.none L0 lv0 (seg0 m) (seg2 m) (reg0 m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c : Thread nD τ).loc main_v2) = V3 m c main_v2
      ∧ s.mem ((c : Thread nD τ).loc main_arg0) = m ((c : Thread nD τ).loc main_arg0))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨h (Proc.devRef .tc main_v2) (Finset.mem_filter.mpr ⟨StableHlo.devRef_mem_tcRefs main_v2, by decide⟩),
          (h (Proc.devRef .tc main_arg0) (Finset.mem_filter.mpr ⟨StableHlo.devRef_mem_tcRefs main_arg0, by decide⟩)).trans (V3_main_arg0 m c)⟩
      · iexact HSI)
    (hQ := fun _ h => h)

end Cert.Kernel.Hand

end
-- ==== Proof.BodyIdeal.lean ====
import proofs.«115747_j37194416783875_2_alg».proof.Proof.Gen.KernelIdeal.Loops
import proofs.«115747_j37194416783875_2_alg».proof.Proof.Gen.KernelIdeal.Points
import proofs.«115747_j37194416783875_2_alg».proof.Proof.Gen.KernelIdeal.Launch
import Idealize.ShloMosaic.Lib.Tactic
import Idealize.ShloMosaic.Lib.Pipeline.Frame
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on whole staging buffers

The body loads the query tile x0 (a 1x8x512 block), runs eight trips each loading one 1x8x256 chunk of the key
row x1 and adding that chunk's contribution to an 8x512 accumulator carried in registers, and stores the scaled
accumulator over the whole output block. The carried value after n trips is a function of x0, x1 and n alone;
the output block is its image under the final scaling. -/

/-- The offsets (0, 0, 0) are the zero offsets. -/
theorem hz3 : (![0, 0, 0] : Fin 3 → Nat) = fun _ => 0 := by
  funext a; match a with | ⟨0, _⟩ => rfl | ⟨1, _⟩ => rfl | ⟨2, _⟩ => rfl

/-- The accumulator before trip n, from the query tile x0 and the key row x1. -/
def accOf (c : Dev nD) (i : grid0.Coords) (arg2 : Memref sig .tc .vmem S1x8x512 .f32) (harg2 : arg2.IsWhole) (arg3 : Memref sig .tc .vmem S1x8x2048 .f32) (harg3 : arg3.IsWhole) (arg4 : Memref sig .tc .vmem S1x8x512 .f32) (harg4 : arg4.IsWhole)
    (x0 : Vec F S1x8x512 .f32) (x1 : Vec F S1x8x2048 .f32) (n : ℕ) : FVec F S8x512 .f32 :=
  st_k0_t1 (F := F) Variants.none c none i arg2 harg2 arg3 harg3 arg4 harg4 x0 (harg3.unread x1) (k0_pay1 (F := F)) n

/-- The output block: the accumulator after all eight trips, scaled. -/
def outOf (c : Dev nD) (i : grid0.Coords) (arg2 : Memref sig .tc .vmem S1x8x512 .f32) (harg2 : arg2.IsWhole) (arg3 : Memref sig .tc .vmem S1x8x2048 .f32) (harg3 : arg3.IsWhole) (arg4 : Memref sig .tc .vmem S1x8x512 .f32) (harg4 : arg4.IsWhole)
    (x0 : Vec F S1x8x512 .f32) (x1 : Vec F S1x8x2048 .f32) : Vec F S1x8x512 .f32 :=
  k0_pay3 (F := F) (accOf c i arg2 harg2 arg3 harg3 arg4 harg4 x0 x1 k0_t1_loop.trips)

set_option maxHeartbeats 1000000 in
/-- The body's triple: with the two input buffers at x0 and x1 and the output buffer at anything, the body runs
    and leaves the inputs as they were and the output at outOf: its one store covers the whole block. -/
theorem kernelRun (c : Dev nD) (i : grid0.Coords) (arg2 : Memref sig .tc .vmem S1x8x512 .f32) (harg2 : arg2.IsWhole) (arg3 : Memref sig .tc .vmem S1x8x2048 .f32) (harg3 : arg3.IsWhole) (arg4 : Memref sig .tc .vmem S1x8x512 .f32) (harg4 : arg4.IsWhole)
    (x0 : Vec F S1x8x512 .f32) (x1 : Vec F S1x8x2048 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ owns (c : Thread nD τ) arg4 fullShare (outOf c i arg2 harg2 arg3 harg3 arg4 harg4 x0 x1)) -∗ K ⟨⟩))
          ⊢ wp frame (wpE (defs₀ (F := F)) Variants.none c none) E (cc0__softrank_kernel i arg2 harg2 arg3 harg3 arg4 harg4) K := by
    intro E K
    simp only [cc0__softrank_kernel_eq_skeleton]; unfold cc0__softrank_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    rw [View.read_writes_eq_canon _ _ _ (View.cover_of_tiledL _ S1x8x512.size (by sl_kernel_rfl)), View.canon_unit_zero hz3]
    unfold outOf accOf
    simp only [View.readAt_eq_ld, harg2.read_unread, View.ld_unit_zero (S := S1x8x512) hz3]

end Cert.KernelIdeal.Hand

end
-- ==== Proof.DatIdeal.lean ====
import proofs.«115747_j37194416783875_2_alg».proof.Proof.Gen.KernelIdeal.Loops
import proofs.«115747_j37194416783875_2_alg».proof.Proof.Gen.KernelIdeal.Points
import proofs.«115747_j37194416783875_2_alg».proof.Proof.Gen.KernelIdeal.Launch
import proofs.«115747_j37194416783875_2_alg».proof.Proof.BodyIdeal
import Idealize.ShloMosaic.Lib.Tactic
import Idealize.ShloMosaic.Lib.Pipeline.Frame
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers around the region

The program transposes its argument into a [4, 8, 2048] array, hands that ONE array to the kernel twice (as the
query window, cut into 1x8x512 tiles, and as the key window, one whole 1x8x2048 row per batch), and transposes the
kernel's [4, 8, 2048] result back. -/

/-- Core c's buffers at launch, -/
abbrev V0 (c : Dev nD) : Valuation τ sig (Elt F) := fun b => m (c, b)
/-- and when the region is entered: the first transpose has run. -/
abbrev V1 (c : Dev nD) : Valuation τ sig (Elt F) := StableHlo.after hostOps0 (V0 m c)
/-- The same, read at a TensorCore reference. -/
abbrev V (c : Dev nD) (b : Ref sig .tc) : Buf (Elt F) ((c : Thread nD τ).loc b) := V1 m c b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point t, as the pipeline passes it to the body, and its wholeness. -/
abbrev ms0_0 (t : Fin cfg0.N) : Memref sig .tc .vmem S1x8x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x512 .f32 := win0_2.stage (cfg0.slots t 2)
abbrev hs0_2 (t : Fin cfg0.N) : (ms0_2 t).IsWhole := hstage0_2 ((cfg0.slots t 2).cast nbuf0_2)

/-- What the body leaves in the output window at point t: the output block of that point's query tile and key row. -/
def outBlk (c : Dev nD) (t : Fin cfg0.N) : Vec F S1x8x512 .f32 :=
  outOf c (grid0.coords t) (ms0_0 t) (hs0_0 t) (ms0_1 t) (hs0_1 t) (ms0_2 t) (hs0_2 t) (iblk m c 0 t) (iblk m c 1 t)

/-! ## The pipeline's proof data -/

/-- The proof data on core c. The arrays are the region-entry contents; the body leaves each input block in place and
    the output block at outBlk; the invariant is the scoped buffers no window stages (there is none); nothing is owed.
    The two input windows read ONE array, so each holds half of it: the left and the right half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk m c t := by dsimp only [dats]

/-- The query window's buffer holds its tile at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The key window's buffer holds its row at every point: it is fetched when the batch changes, and between two
    fetches the body leaves it in place and the row's index does not move. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' buffers hold their blocks, so the body's triple applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outBlk
  iintro ⟨HΦ, Ho, ⟨%d0, H0⟩, ⟨%d1, H1⟩, ⟨%d2, H2⟩⟩
  iapply ((kernelRun c (grid0.coords t) _ _ _ _ _ _ (iblk m c 0 t) (iblk m c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunIdeal.lean ====
import proofs.«115747_j37194416783875_2_alg».proof.Proof.Gen.KernelIdeal.Loops
import proofs.«115747_j37194416783875_2_alg».proof.Proof.Gen.KernelIdeal.Points
import proofs.«115747_j37194416783875_2_alg».proof.Proof.Gen.KernelIdeal.Launch
import proofs.«115747_j37194416783875_2_alg».proof.Proof.DatIdeal
import Idealize.ShloMosaic.Lib.Tactic
import Idealize.ShloMosaic.Lib.Pipeline.Frame
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two host stretches write -/

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.unary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall]; exact (by simp only [StableHlo.unary_writes, Finset.singleton_subset_iff, List.mem_toFinset]; exact List.mem_map_of_mem (by decide))

/-! ## The buffers after the region and at the end -/

/-- The kernel's result array when the region ends: every block written back. -/
def outArr (c : Dev nD) : Buf (Elt F) ((c : Thread nD τ).loc main_v1) := (dats m 0 c).arrAt 2 cfg0.N

/-- Core c's buffers after the region: the result array written, everything else as the region found it, -/
abbrev V2 (c : Dev nD) : Valuation τ sig (Elt F) := Function.update (V1 m c) main_v1 (outArr m c)
/-- and at the end: the second transpose has run. -/
abbrev V3 (c : Dev nD) : Valuation τ sig (Elt F) := StableHlo.after hostOps1 (V2 m c)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v1] : List (Ref sig .tc))) : V2 m c r = V1 m c r := by
  simp only [V2, Function.update_of_ne (StableHlo.devRef_ne_of_ne (List.ne_of_not_mem_cons h) : (Proc.devRef .tc r : DevRef τ sig) ≠ Proc.devRef .tc main_v1)]
theorem V3_of (c : Dev nD) (r : Ref sig .tc) (h : r ∉ hostOps1_W) : V3 m c r = V2 m c r :=
  StableHlo.after_of_writes_sub hostOps1 _ hostOps1_writes h

/-- The argument reaches the end as launched: neither transpose writes it and the region does not stage it. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl

/-- After the region the result array holds what the kernel wrote. -/
theorem V2_main_v1 (c : Dev nD) : V2 m c main_v1 = outArr m c := by
  simp only [V2, Function.update_self]

/-! ## The unscoped buffers and the pipeline's arrays, one by one -/

/-- The unscoped buffers held at a valuation: the argument, its transpose, the kernel's result, the program's result. -/
theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold StableHlo.held
  exact bigSep_eq_bigSepL_of_eq [Proc.devRef .tc main_arg0, Proc.devRef .tc main_v0, Proc.devRef .tc main_v1, Proc.devRef .tc main_v2] (by decide) (by decide) _

/-- The pipeline's arrays at contents Fa: the transposed argument twice, at the two halves of the full share (one per
    input window), and the result array whole. -/
theorem arrays0_eq (c : Dev nD) (Fa : (w : Fin cfg0.W) → Buf (Elt F) ((cfg0.win w).arr.view.loc (c : Thread nD τ))) :
    (dats m 0 c).arrays Fa
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [bigSep_W0, (arr_whole0 0).set_eq_univ, (arr_whole0 2).set_eq_univ]
  rfl

/-! ## The launch: the program as host stretch, region, host stretch -/

/-- No core owes another anything: no level is assigned. -/
abbrev L0 : GSem nD τ sig → Finset Unit := fun _ => ∅
abbrev lv0 : GSem nD τ sig → Unit → ℕ := fun _ _ => 0
/-- No pipeline has a prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-- The first transpose, over the unscoped buffers from their launch contents. -/
def seg0 : HostSeg (Ix := Unit) (Name := ℕ) (U := UR sig nD τ) (Lvl := ℕ) (pcfgs (F := F)) defs₀ Variants.none L0 lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The second transpose, over the unscoped buffers as the region left them. -/
def seg2 : HostSeg (Ix := Unit) (Name := ℕ) (U := UR sig nD τ) (Lvl := ℕ) (pcfgs (F := F)) defs₀ Variants.none L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

set_option backward.isDefEq.respectTransparency.types false in
/-- The region. Entered from the buffers after the first transpose: the transposed argument is split into its two
    halves, one per input window; the result array goes to the output window whole; the argument and the program's
    result bypass the region. Left with the halves joined back (an input array ends as it began) and the result array
    at what the kernel wrote. -/
def reg0 : RegionSeg (pcfgs (F := F)) adm (dats m) () defs₀ Variants.none L0 lv0 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L0 lv0 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X _ := iprop(emp)
  Y _ := iprop(emp)
  Z c := iprop((((c : Thread nD τ).loc main_arg0) ↦{fullShare} V1 m c main_arg0) ∗ (((c : Thread nD τ).loc main_v2) ↦{fullShare} V1 m c main_v2))
  hentry c := by
    rw [held_eq, arrays0_eq]
    iintro ⟨⟨⟨Ha0, Hv0, Hv1, Hv2⟩, HO⟩, -, -⟩
    ihave Hs := (pointsTo_share (PosShare.mem_left_op_right fullShare)).1 $$ Hv0
    icases Hs with ⟨HL, HR⟩
    imodintro
    isplitl [HL HR Hv1]
    · isplitl [HL]; · iexact HL
      isplitl [HR]; · iexact HR
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0]; · iexact Ha0
    iexact Hv2
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [held_eq, arrays0_eq, (dats m 0 c).arrAt_in 0 rfl, (dats m 0 c).arrAt_in 1 rfl, V2_of m c main_arg0 (by decide), V2_of m c main_v0 (by decide), V2_of m c main_v2 (by decide), V2_main_v1]
    iintro ⟨⟨HL, HR, Hv1⟩, HO, -, ⟨Ha0, Hv2⟩⟩
    ihave Hv0 := (pointsTo_share (PosShare.mem_left_op_right fullShare)).2 $$ [HL HR]
    · isplitl [HL]; · iexact HL
      iexact HR
    imodintro
    isplitr [HO]
    · isplitl [Ha0]; · iexact Ha0
      isplitl [Hv0]; · iexact Hv0
      isplitl [Hv1]; · iexact Hv1
      iexact Hv2
    · unfold Pipeline.Dat.owesAt Pipeline.owesWithin
      icases HO with ⟨%W, -, HO⟩; iexists W; iexact HO

/-- The program as the list of the three. -/
abbrev segs : List (Seg (pcfgs (F := F)) adm (dats m) () defs₀ Variants.none L0 lv0) := [.host (seg0 m), .region (reg0 m), .host (seg2 m)]

/-- What a run ends with, per core: the argument as launched, and the program's result the transpose of what the kernel
    wrote. -/
def QC : PUnit × MemSt nD τ sig (Elt F) → Prop := fun r =>
  ∀ c : Dev nD, r.2.mem ((c : Thread nD τ).loc main_v2) = V3 m c main_v2
    ∧ r.2.mem ((c : Thread nD τ).loc main_arg0) = m ((c : Thread nD τ).loc main_arg0)

set_option backward.isDefEq.respectTransparency.types false in
/-- From any memory with zero counters every weakly fair execution of the program terminates, nothing faulting, the
    argument unchanged and the result buffer at the second transpose of the kernel's result array. -/
theorem run_main : θ_run defs (onTc (τ := τ) (main (F := F))) ⟨m, fun _ => 0, ρ⟩ (QC m) :=
  Pipeline.θ_run_regions_kit (pcfgs (F := F)) adm (dats m) () cellOf_inj emb₁ defs₀ Variants.none L0 lv0 m ρ main (segs m)
    (fun c Q => by rw [main_segs adm (dats m) () Variants.none L0 lv0 (seg0 m) (seg2 m) (reg0 m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c : Thread nD τ).loc main_v2) = V3 m c main_v2
      ∧ s.mem ((c : Thread nD τ).loc main_arg0) = m ((c : Thread nD τ).loc main_arg0))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨h (Proc.devRef .tc main_v2) (Finset.mem_filter.mpr ⟨StableHlo.devRef_mem_tcRefs main_v2, by decide⟩),
          (h (Proc.devRef .tc main_arg0) (Finset.mem_filter.mpr ⟨StableHlo.devRef_mem_tcRefs main_arg0, by decide⟩)).trans (V3_main_arg0 m c)⟩
      · iexact HSI)
    (hQ := fun _ h => h)

end Cert.KernelIdeal.Hand

end
-- ==== Proof.Spec.lean ====
/-
  The function both programs compute at the ideal instance.

  For an array x of extended reals of shape [4, 2048, 8] the result at (b, n, d) is

      ( Σ_{i < 2048} σ(1000 · (x[b, n, d] − x[b, i, d])) ) · 2⁻¹¹ ,      σ(z) = 1 / (1 + e^{−z}),

  the mean over the comparison axis i of the logistic of the scaled pairwise differences along axis 1.
  The two float constants are kept as their binary words: 0x447A0000 is 1000 and 0x3A000000 is 2⁻¹¹.
  One side accumulates the sum in eight consecutive chunks of 256 and multiplies by 2⁻¹¹; the other sums all 2048
  terms at once and divides by 2048. Over the extended reals addition is commutative and associative, and dividing by
  the real 2048 is multiplying by its reciprocal, so no finiteness of x is needed for the two to agree.
-/
import Idealize.ShloMosaic.PureOps.Ideal
import Idealize.ShloMosaic.Lib.ValueIdx

noncomputable section

open scoped BigOperators

namespace Cert.SoftRank

open Idealize.ShloMosaic Idealize.ShloMosaic.ValueIdx

/-- The argument's and the result's shape. -/
abbrev SX : Shape := ⟨3, ![4, 2048, 8]⟩

/-- The scale 1000 and the weight 2⁻¹¹ = 1/2048, as the words both programs print. -/
abbrev scale : EReal := Ideal.ofBits .f32 0x447A0000#32
abbrev weight : EReal := Ideal.ofBits .f32 0x3A000000#32

/-- One comparison: the logistic of the scaled difference between entry (b, n, d) and entry (b, i, d). -/
def pair (x : SX.Idx → EReal) (b : Fin 4) (n : Fin 2048) (d : Fin 8) (i : Fin 2048) : EReal :=
  Ideal.logistic (scale * (x (ix3 b n d) - x (ix3 b i d)))

/-- The result at coordinates (b, n, d): the weighted sum of the 2048 comparisons of row n. -/
def rankAt (x : SX.Idx → EReal) (b : Fin 4) (n : Fin 2048) (d : Fin 8) : EReal :=
  (∑ i : Fin 2048, pair x b n d i) * weight

/-- The result array. -/
def rank (x : SX.Idx → EReal) : SX.Idx → EReal := fun j => rankAt x (j 0) (j 1) (j 2)

theorem rank_ix3 (x : SX.Idx → EReal) (b : Fin 4) (n : Fin 2048) (d : Fin 8) : rank x (ix3 b n d) = rankAt x b n d := rfl

end Cert.SoftRank

end
-- ==== Proof.RefBridge.lean ====
/-
  The reference side of the certificate: the array the reference program computes from x is the function
  `Cert.SoftRank.rank x` of Proof/Spec.lean.

  The program forms, for every (b, n, k, d), the difference x[b, n, d] − x[b, k, d] (two broadcasts of x along a new
  axis), multiplies it by the word 0x447A0000, applies z ↦ 1 / (1 + e^{−z}), sums over k starting from the zero word,
  and divides by the word 0x45000000. Three facts carry the proof:
    • read at an index, the two broadcasts pick the entries (b, n, d) and (b, k, d) of x;
    • the word 0x3F800000 is the extended real 1, so 1 / (1 + e^{−z}) is the logistic of z by its definition;
    • 0x00000000 is 0, 0x45000000 is the real 2048 and 0x3A000000 is the real 1/2048, and over the extended reals
      dividing by a nonzero real is multiplying by its reciprocal, at the infinities too.
  The scale word 0x447A0000 stands on both sides and is never evaluated.
-/
import proofs.«115747_j37194416783875_2_alg».proof.Proof.Gen.ReferenceIdeal.Read
import proofs.«115747_j37194416783875_2_alg».proof.Proof.Spec
import Idealize.ShloMosaic.Lib.ValueIdx
import Idealize.ShloMosaic.Lib.IdealHost

noncomputable section

open scoped BigOperators

namespace Cert.SoftRank.Ref

open Idealize.ShloMosaic Idealize.ShloMosaic.ValueIdx Cert.ReferenceIdeal Cert.ReferenceIdeal.Read

/-! ## The two words of the mean -/

/-- The word 0x45000000 (sign 0, exponent 138, fraction 0) denotes 2²³ · 2^(138 − 127 − 23) = 2¹¹ = 2048. -/
theorem ofBits_2048 : Ideal.ofBits .f32 0x45000000#32 = ((2048 : ℝ) : EReal) := by
  simp [Ideal.ofBits, Ideal.ieee, -EReal.coe_mul]; norm_num

/-- The word 0x3A000000 (sign 0, exponent 116, fraction 0) denotes 2²³ · 2^(116 − 127 − 23) = 2⁻¹¹ = 1/2048. -/
theorem ofBits_inv2048 : Ideal.ofBits .f32 0x3A000000#32 = ((1 / 2048 : ℝ) : EReal) := by
  simp [Ideal.ofBits, Ideal.ieee, -EReal.coe_mul]; norm_num

/-! ## The broadcasts read at an index -/

/-- The left operand of the difference at (b, n, k, d) is x at (b, n, d): the comparison axis k is the inserted one. -/
theorem idx_left (b : Fin 4) (n : Fin 2048) (d : Fin 8) (k : Fin 2048) :
    idx_main_v0 (idx_main_v2 (idx_main_v13 (ix3 b n d) k)) = ix3 b n d :=
  funext fun a => Fin.ext (by match a with | ⟨0, _⟩ => rfl | ⟨1, _⟩ => rfl | ⟨2, _⟩ => rfl)

/-- The right operand of the difference at (b, n, k, d) is x at (b, k, d): the row axis n is the inserted one. -/
theorem idx_right (b : Fin 4) (n : Fin 2048) (d : Fin 8) (k : Fin 2048) :
    idx_main_v1 (idx_main_v3 (idx_main_v13 (ix3 b n d) k)) = ix3 b k d :=
  funext fun a => Fin.ext (by match a with | ⟨0, _⟩ => rfl | ⟨1, _⟩ => rfl | ⟨2, _⟩ => rfl)

/-! ## One term of the sum -/

/-- The summand at (b, n, k, d) is the comparison `pair x b n d k`: it is 1 / (1 + e^{−z}) with
    z = scale · (x[b, n, d] − x[b, k, d]), and with the numerator's and the summand's word 0x3F800000 read as 1 that
    expression is the logistic of z by definition. -/
theorem term_eq (x : (⟨S4x2048x8, .f32⟩ : BufTy).Contents (Elt Ideal)) (b : Fin 4) (n : Fin 2048) (d : Fin 8)
    (k : Fin 2048) :
    val_main_v12 (F := Ideal) x (idx_main_v13 (ix3 b n d) k) = Cert.SoftRank.pair x b n d k := by
  rw [val_main_v12_apply, val_main_v11_apply, val_main_cst_1_apply, val_main_v10_apply, val_main_v9_apply,
    val_main_cst_0_apply, val_main_v8_apply, val_main_v7_apply, val_main_v6_apply, val_main_v5_apply,
    val_main_cst_apply, val_main_v4_apply, val_main_v2_apply, val_main_v0_apply, val_main_v3_apply,
    val_main_v1_apply, idx_left, idx_right]
  simp only [Ideal.hostDivf_def, Ideal.addf_def, Ideal.hostUnary_exp_def, Ideal.hostNegf_def, Ideal.negf_def,
    Ideal.mulf_def, Ideal.subf_def, Ideal.ofBits_def, Ideal.ofBits_one_f32]
  rfl

/-! ## The whole array -/

/-- At (b, n, d) the program's value is (0 + Σ_k pair x b n d k) / 2048. The zero word adds nothing, and dividing by
    the real 2048 is multiplying by the real 1/2048, which is the weight word: the result is `rankAt x b n d`. -/
theorem ref_eq (x : (⟨S4x2048x8, .f32⟩ : BufTy).Contents (Elt Ideal)) :
    val_main_v15 (F := Ideal) x = Cert.SoftRank.rank x := by
  funext i
  obtain ⟨b, n, d, rfl⟩ : ∃ (b : Fin 4) (n : Fin 2048) (d : Fin 8), i = ix3 b n d := ⟨i 0, i 1, i 2, eq_ix3 i⟩
  rw [val_main_v15_apply, val_main_v14_apply, val_main_cst_3_apply, val_main_v13_apply, val_main_cst_2_apply,
    Cert.SoftRank.rank_ix3]
  simp only [Ideal.hostDivf_def, Ideal.ofBits_def]
  rw [Ideal.ofBits_zero_f32, zero_add, ofBits_2048, Ideal.div_coe (by norm_num), ← ofBits_inv2048]
  unfold Cert.SoftRank.rankAt
  congr 1
  exact Finset.sum_congr rfl fun k _ => term_eq x b n d k

end Cert.SoftRank.Ref

end
-- ==== Proof.KernelValue.lean ====
/-
  The kernel's arithmetic read at one index, at the ideal instance.

  One trip of the kernel's loop adds to the running array, at (d, n), the sum over the 256 entries j of a chunk of
  σ(1000 · (x[0, d, n] − chunk[0, d, j])), σ(z) = 1 / (1 + e^{−z}); the running array starts at 0 and the result is the
  running array times 2⁻¹¹. Eight trips over consecutive chunks therefore give, at (d, n), the sum over all
  2048 = 8 · 256 comparison entries, because addition of extended reals is commutative and associative and every
  i < 2048 is 256 · (i / 256) + i % 256 in exactly one way.
-/
import proofs.«115747_j37194416783875_2_alg».proof.Proof.Gen.KernelIdeal.Skeleton
import proofs.«115747_j37194416783875_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SoftRank.KernelValue

open Idealize.ShloMosaic Idealize.ShloMosaic.ValueIdx Cert.KernelIdeal Cert.KernelIdeal.Gen

/-! ## Reshapes that insert a unit axis, and broadcasts along it, read at coordinates -/

section Layout
variable {α : Type}

/-- An [a, b] array cast to [a, 1, b] reads, at (i, u, j), the operand at (i, j): both have row-major position i·b + j. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b] array cast to [a, b, 1] reads, at (i, j, u), the operand at (i, j): both have row-major position i·b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array broadcast to [a, b, c] reads, at (i, k, j), the operand at (i, 0, j). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- An [a, b, 1] array broadcast to [a, b, c] reads, at (i, k, j), the operand at (i, k, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

end Layout

/-! ## Re-indexing 2048 = 8 · 256 -/

/-- A sum over i < 2048 of a term in the quotient i / 256 and the remainder i % 256 is the double sum over the
    quotients k < 8 and the remainders j < 256: i ↦ (i / 256, i % 256) is a bijection. -/
theorem sum_div_mod {M : Type*} [AddCommMonoid M] (g : Fin 8 → Fin 256 → M) :
    ∑ i : Fin 2048, g ⟨i.val / 256, by omega⟩ ⟨i.val % 256, by omega⟩ = ∑ k : Fin 8, ∑ j : Fin 256, g k j := by
  rw [← Fintype.sum_prod_type']
  exact Fintype.sum_equiv (finProdFinEquiv (m := 8) (n := 256)).symm _ _ (fun _ => rfl)

variable [Cert.KernelIdeal.Facts]

/-! ## The three payloads at an index -/

/-- The initial running array is 0 everywhere: the word 0 is the extended real 0. -/
theorem pay1_apply (d : Fin 8) (n : Fin 512) : k0_pay1 (F := Ideal) (ix2 d n) = 0 :=
  Ideal.ofBits_zero_f32

/-- The result block at (0, d, n) is the running array at (d, n) times 2⁻¹¹: the reshape [8, 512] → [1, 8, 512] keeps
    the row-major position. -/
theorem pay3_apply (v : FVec Ideal S8x512 .f32) (d : Fin 8) (n : Fin 512) :
    k0_pay3 (F := Ideal) v (ix3 (0 : Fin 1) d n) = v (ix2 d n) * weight := by
  unfold k0_pay3
  exact shapeCast_ab_1ab_apply _ _ (0 : Fin 1) d n

/-- The source index over (d, n) with coordinate k on the summed axis is (d, k, n). -/
theorem lift_eq (h : S8x256x512.Reduces [1] S8x512) (d : Fin 8) (n : Fin 512) (k : Fin 256) :
    h.lift (ix2 d n) k = ix3 d k n := by
  funext c
  match c with
  | ⟨0, _⟩ => rfl
  | ⟨1, _⟩ => rfl
  | ⟨2, _⟩ => rfl

/-- One trip at (d, n): the running array plus the sum over the chunk's 256 entries j of
    σ(1000 · (x0[0, d, n] − chunk[0, d, j])). The two operands of the difference are the row x0[0, d, ·] laid along
    the last axis and the chunk's row laid along the middle axis, each repeated along the other; the sum runs over
    the middle axis. -/
theorem pay2_apply (x0 : Vec Ideal S1x8x512 .f32) (acc : FVec Ideal S8x512 .f32) (x13 : Vec Ideal S1x8x256 .f32)
    (d : Fin 8) (n : Fin 512) :
    k0_pay2 (F := Ideal) x0 acc x13 (ix2 d n)
      = acc (ix2 d n) + ∑ j : Fin 256, Ideal.logistic (scale * (x0 (ix3 (0 : Fin 1) d n) - x13 (ix3 (0 : Fin 1) d j))) := by
  unfold k0_pay2
  refine congrArg (acc (ix2 d n) + ·) ?_
  refine (Ideal.multiReduction_add_single _ 0x00000000#32 Facts₀.reduces_S8x256x512_S8x512 (.inl rfl) rfl (ix2 d n)).trans ?_
  refine Finset.sum_congr rfl fun (j : Fin 256) _ => ?_
  rw [lift_eq _ d n j]
  show Ideal.logistic (scale * (broadcastTo S8x256x512 _ _ (ix3 d j n) - broadcastTo S8x256x512 _ _ (ix3 d j n))) = _
  rw [broadcastTo_a1c_abc_apply, broadcastTo_ab1_abc_apply, shapeCast_ab_a1b_apply, shapeCast_ab_ab1_apply,
    shapeCast_1ab_ab_apply, shapeCast_1ab_ab_apply]

/-! ## Eight trips -/

/-- After the eight trips the result block at (0, d, n) is the sum over all 2048 comparison entries, entry i read from
    chunk i / 256 at position i % 256, times 2⁻¹¹. -/
theorem block_value (x0 : Vec Ideal S1x8x512 .f32) (ch : Fin 8 → Vec Ideal S1x8x256 .f32)
    (acc : ℕ → FVec Ideal S8x512 .f32) (h0 : acc 0 = k0_pay1 (F := Ideal))
    (hstep : ∀ k : Fin 8, acc (k.val + 1) = k0_pay2 (F := Ideal) x0 (acc k.val) (ch k)) (d : Fin 8) (n : Fin 512) :
    k0_pay3 (F := Ideal) (acc 8) (ix3 (0 : Fin 1) d n)
      = (∑ i : Fin 2048, Ideal.logistic (scale * (x0 (ix3 (0 : Fin 1) d n)
          - ch ⟨i.val / 256, by omega⟩ (ix3 (0 : Fin 1) d ⟨i.val % 256, by omega⟩)))) * weight := by
  -- the running array after m trips is the sum of the first m chunk sums
  have hsum : ∀ (m : ℕ) (hm : m ≤ 8), acc m (ix2 d n)
      = ∑ k : Fin m, ∑ j : Fin 256,
          Ideal.logistic (scale * (x0 (ix3 (0 : Fin 1) d n) - ch (Fin.castLE hm k) (ix3 (0 : Fin 1) d j))) := by
    intro m
    induction m with
    | zero => intro _; rw [h0, pay1_apply]; rfl
    | succ m ih =>
      intro hm
      rw [Fin.sum_univ_castSucc, hstep ⟨m, by omega⟩, pay2_apply, ih (by omega)]
      rfl
  rw [pay3_apply, hsum 8 le_rfl]
  exact congrArg (· * weight) (sum_div_mod fun k j =>
    Ideal.logistic (scale * (x0 (ix3 (0 : Fin 1) d n) - ch k (ix3 (0 : Fin 1) d j)))).symm

end Cert.SoftRank.KernelValue

end
-- ==== Proof.ValueIdeal.lean ====
/-
  The kernel side of the certificate, read as values: the array the region leaves is the specification's
  function of the launch argument.

  The program transposes its argument x : [4, 2048, 8] into y : [4, 8, 2048], y[b, d, n] = x[b, n, d]. Grid point t
  (sixteen of them, batch t / 4 and tile t % 4) is handed the query tile y[t / 4, ·, 512 (t % 4) + ·] and the key row
  y[t / 4, ·, ·], runs eight trips, trip k loading the stretch of the key row at offsets (0, 0, 256 k), and leaves
  in the output tile, at (0, d, n),

      ( Σ_{p < 2048} σ(1000 · (y[t / 4, d, 512 (t % 4) + n] − y[t / 4, d, p])) ) · 2⁻¹¹ ,

  which is the specification's value at batch t / 4, row 512 (t % 4) + n and feature d of x. The sixteen output
  tiles tile the result array [4, 8, 2048], index (b, d, n) lying in the tile of point 4 b + n / 512, so the result
  array holds at (b, d, n) the specification's value at (b, n, d).
-/
import proofs.«115747_j37194416783875_2_alg».proof.Proof.DatIdeal
import proofs.«115747_j37194416783875_2_alg».proof.Proof.KernelValue
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SoftRank (scale weight)

/-! ## One trip, and the running array as a recursion on trips -/

section AnyInstance
variable {F : FTy → Type} [FloatOps F]

/-- One trip's result is the trip payload of the query tile, the running array and the chunk the trip loads. -/
theorem tripR_eq (𝒱 : Variants) (c : Dev nD) (bd : Option 𝒱.V) (i : grid0.Coords)
    (arg2 : Memref sig .tc .vmem S1x8x512 .f32) (harg2 : arg2.IsWhole) (arg3 : Memref sig .tc .vmem S1x8x2048 .f32) (harg3 : arg3.IsWhole)
    (arg4 : Memref sig .tc .vmem S1x8x512 .f32) (harg4 : arg4.IsWhole) (v0 : Vec F S1x8x512 .f32)
    (X : BufTy.Contents (Elt F) arg3.view.ty) (k : Fin k0_t1_loop.trips) (acc : FVec F S8x512 .f32) :
    tripR_k0_t1 (F := F) 𝒱 c bd i arg2 harg2 arg3 harg3 arg4 harg4 v0 X k acc
      = k0_pay2 v0 acc (View.readAt (Elt F) arg3.view
          (Rect.unit (s := S1x8x2048) (k0_off1 k) S1x8x256.size (k0_off1_inb k)).toLoadRect X) := by
  unfold tripR_k0_t1 trip_k0_t1; rfl

/-- The loop runs eight trips. -/
theorem trips_eq : k0_t1_loop.trips = 8 := by decide

/-- Before the first trip the running array is the zero array. -/
theorem accOf_zero (c : Dev nD) (i : grid0.Coords) (arg2 : Memref sig .tc .vmem S1x8x512 .f32) (harg2 : arg2.IsWhole)
    (arg3 : Memref sig .tc .vmem S1x8x2048 .f32) (harg3 : arg3.IsWhole) (arg4 : Memref sig .tc .vmem S1x8x512 .f32) (harg4 : arg4.IsWhole)
    (x0 : Vec F S1x8x512 .f32) (x1 : Vec F S1x8x2048 .f32) :
    accOf c i arg2 harg2 arg3 harg3 arg4 harg4 x0 x1 0 = k0_pay1 (F := F) := rfl

/-- Trip k takes the running array to the trip payload of it and the chunk at offset 256 k of the key row. -/
theorem accOf_succ (c : Dev nD) (i : grid0.Coords) (arg2 : Memref sig .tc .vmem S1x8x512 .f32) (harg2 : arg2.IsWhole)
    (arg3 : Memref sig .tc .vmem S1x8x2048 .f32) (harg3 : arg3.IsWhole) (arg4 : Memref sig .tc .vmem S1x8x512 .f32) (harg4 : arg4.IsWhole)
    (x0 : Vec F S1x8x512 .f32) (x1 : Vec F S1x8x2048 .f32) (k : Fin k0_t1_loop.trips) :
    accOf c i arg2 harg2 arg3 harg3 arg4 harg4 x0 x1 (k.val + 1)
      = k0_pay2 x0 (accOf c i arg2 harg2 arg3 harg3 arg4 harg4 x0 x1 k.val) (View.readAt (Elt F) arg3.view
          (Rect.unit (s := S1x8x2048) (k0_off1 k) S1x8x256.size (k0_off1_inb k)).toLoadRect (harg3.unread x1)) := by
  unfold accOf
  rw [st_k0_t1_succ, tripR_eq]

end AnyInstance

/-! ## The chunk a trip loads, read at an index -/

/-- Trip k's chunk at (0, d, j) is the key row at (0, d, 256 k + j): the load's rectangle has unit strides and
    offsets (0, 0, 256 k), and the staging buffer is whole, so it reads what was put in it. -/
theorem chunk_apply (arg3 : Memref sig .tc .vmem S1x8x2048 .f32) (harg3 : arg3.IsWhole) (x1 : Vec Ideal S1x8x2048 .f32)
    (k : Fin k0_t1_loop.trips) (d : Fin 8) (j : Fin 256) (h : 256 * k.val + j.val < 2048) :
    View.readAt (Elt Ideal) arg3.view (Rect.unit (s := S1x8x2048) (k0_off1 k) S1x8x256.size (k0_off1_inb k)).toLoadRect
        (harg3.unread x1) (ix3 (0 : Fin 1) d j)
      = x1 (ix3 (0 : Fin 1) d ⟨256 * k.val + j.val, h⟩) := by
  rw [View.readAt_eq_ld, harg3.read_unread]
  show x1 _ = x1 _
  refine congrArg x1 (funext fun a => Fin.ext ?_)
  rw [LoadRect.idx_apply]
  have hoff : ∀ a, (Rect.unit (s := S1x8x2048) (k0_off1 k) S1x8x256.size (k0_off1_inb k)).off a
      = (![0, 0, 256 * k.val] : Fin 3 → ℕ) a := fun a => congrFun (k0_off1_eq k) a
  have hst : ∀ a, (Rect.unit (s := S1x8x2048) (k0_off1 k) S1x8x256.size (k0_off1_inb k)).stride a = 1 := fun _ => rfl
  rw [hoff, hst]
  match a with
  | ⟨0, _⟩ => show (0 : ℕ) + 1 * (0 : ℕ) = 0; rfl
  | ⟨1, _⟩ => show (0 : ℕ) + 1 * d.val = d.val; omega
  | ⟨2, _⟩ => show 256 * k.val + 1 * j.val = 256 * k.val + j.val; omega

/-! ## The output block of a query tile and a key row -/

/-- The output block at (0, d, n) is the weighted sum over the 2048 entries i of the key row of
    σ(1000 · (x0[0, d, n] − x1[0, d, i])): the eight chunks are the key row's eight consecutive stretches of 256, and
    256 · (i / 256) + i % 256 = i. -/
theorem outOf_apply (c : Dev nD) (i : grid0.Coords) (arg2 : Memref sig .tc .vmem S1x8x512 .f32) (harg2 : arg2.IsWhole)
    (arg3 : Memref sig .tc .vmem S1x8x2048 .f32) (harg3 : arg3.IsWhole) (arg4 : Memref sig .tc .vmem S1x8x512 .f32) (harg4 : arg4.IsWhole)
    (x0 : Vec Ideal S1x8x512 .f32) (x1 : Vec Ideal S1x8x2048 .f32) (d : Fin 8) (n : Fin 512) :
    outOf (F := Ideal) c i arg2 harg2 arg3 harg3 arg4 harg4 x0 x1 (ix3 (0 : Fin 1) d n)
      = (∑ p : Fin 2048, Ideal.logistic (scale * (x0 (ix3 (0 : Fin 1) d n) - x1 (ix3 (0 : Fin 1) d p)))) * weight := by
  unfold outOf
  rw [trips_eq]
  rw [Cert.SoftRank.KernelValue.block_value x0
    (fun k : Fin 8 => View.readAt (Elt Ideal) arg3.view (Rect.unit (s := S1x8x2048) (k0_off1 (k.cast trips_eq.symm)) S1x8x256.size
      (k0_off1_inb (k.cast trips_eq.symm))).toLoadRect (harg3.unread x1))
    (accOf c i arg2 harg2 arg3 harg3 arg4 harg4 x0 x1) (accOf_zero c i arg2 harg2 arg3 harg3 arg4 harg4 x0 x1)
    (fun k => accOf_succ c i arg2 harg2 arg3 harg3 arg4 harg4 x0 x1 (k.cast trips_eq.symm)) d n]
  refine congrArg (· * weight) (Finset.sum_congr rfl fun p _ => ?_)
  have hp : p.val < 2048 := p.isLt
  refine congrArg (fun z => Ideal.logistic (scale * (x0 (ix3 (0 : Fin 1) d n) - z))) ?_
  refine (chunk_apply arg3 harg3 x1 _ d _ (show 256 * (p.val / 256) + p.val % 256 < 2048 by omega)).trans ?_
  exact congrArg (fun z : Fin 2048 => x1 (ix3 (0 : Fin 1) d z)) (Fin.ext (Nat.div_add_mod p.val 256))

/-! ## The blocks the region hands the body -/

section Blocks
variable (m : (ℓ : Loc nD τ sig) → Buf (Elt Ideal) ℓ)

/-- The block index maps, decided over the sixteen grid points: point t is at batch t / 4 and tile t % 4; the query
    and the output windows take tile t % 4 of batch t / 4, the key window the whole row of batch t / 4. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ t.val < 16 :=
  (by decide +kernel : ∀ t : Fin grid0.N, _)

/-- The array both input windows read is the transpose of the launch argument: the one host operation before the
    region wrote it. -/
theorem V_main_v0 (c : Dev nD) : (V m c main_v0 : S4x8x2048.Idx → EReal)
    = transpose S4x8x2048 [0, 2, 1] (m ((c : Thread nD τ).loc main_arg0)) transposes_S4x2048x8_S4x8x2048_0_2_1 := by
  dsimp only [V, V1, hostOps0]; after_results

/-- So at (b, d, n) it holds the argument's entry (b, n, d). -/
theorem V_main_v0_apply (c : Dev nD) (b : Fin 4) (d : Fin 8) (n : Fin 2048) :
    (V m c main_v0 : S4x8x2048.Idx → EReal) (ix3 b d n) = (m ((c : Thread nD τ).loc main_arg0) : S4x2048x8.Idx → EReal) (ix3 b n d) := by
  rw [V_main_v0]
  exact transpose_ix3_021_apply _ _ b d n

/-- The query tile of point t at (0, d, n) is the argument at (t / 4, 512 (t % 4) + n, d): the tile is block
    (t / 4, 0, t % 4) of the transposed array, and a block coordinate is index × size + the coordinate inside. -/
theorem iblk0_apply (c : Dev nD) (t : Fin cfg0.N) (d : Fin 8) (n : Fin 512) (hb : t.val / 4 < 4)
    (hn : 512 * (t.val % 4) + n.val < 2048) :
    (iblk (F := Ideal) m c 0 t : Vec Ideal S1x8x512 .f32) (ix3 (0 : Fin 1) d n)
      = (m ((c : Thread nD τ).loc main_arg0) : S4x2048x8.Idx → EReal)
          (ix3 (⟨t.val / 4, hb⟩ : Fin 4) (⟨512 * (t.val % 4) + n.val, hn⟩ : Fin 2048) d) := by
  obtain ⟨e0, e1, e2, -⟩ := idx_facts t
  refine Eq.trans ?_ (V_main_v0_apply m c ⟨t.val / 4, hb⟩ d ⟨512 * (t.val % 4) + n.val, hn⟩)
  show (V m c main_v0 : S4x8x2048.Idx → EReal) (((cfg0.win 0).blk t).view.emb (ix3 (0 : Fin 1) d n)) = _
  refine congrArg (V m c main_v0 : S4x8x2048.Idx → EReal) (funext fun a => Fin.ext ?_)
  match a with
  | ⟨0, _⟩ => show win0_0.index t (0 : Fin 3) * 1 + 1 * 0 = t.val / 4; omega
  | ⟨1, _⟩ => show win0_0.index t (1 : Fin 3) * 8 + 1 * d.val = d.val; omega
  | ⟨2, _⟩ => show win0_0.index t (2 : Fin 3) * 512 + 1 * n.val = 512 * (t.val % 4) + n.val; omega

/-- The key row of point t at (0, d, p) is the argument at (t / 4, p, d): the row is block (t / 4, 0, 0). -/
theorem iblk1_apply (c : Dev nD) (t : Fin cfg0.N) (d : Fin 8) (p : Fin 2048) (hb : t.val / 4 < 4) :
    (iblk (F := Ideal) m c 1 t : Vec Ideal S1x8x2048 .f32) (ix3 (0 : Fin 1) d p)
      = (m ((c : Thread nD τ).loc main_arg0) : S4x2048x8.Idx → EReal) (ix3 (⟨t.val / 4, hb⟩ : Fin 4) p d) := by
  obtain ⟨-, -, -, e0, e1, e2, -⟩ := idx_facts t
  refine Eq.trans ?_ (V_main_v0_apply m c ⟨t.val / 4, hb⟩ d p)
  show (V m c main_v0 : S4x8x2048.Idx → EReal) (((cfg0.win 1).blk t).view.emb (ix3 (0 : Fin 1) d p)) = _
  refine congrArg (V m c main_v0 : S4x8x2048.Idx → EReal) (funext fun a => Fin.ext ?_)
  match a with
  | ⟨0, _⟩ => show win0_1.index t (0 : Fin 3) * 1 + 1 * 0 = t.val / 4; omega
  | ⟨1, _⟩ => show win0_1.index t (1 : Fin 3) * 8 + 1 * d.val = d.val; omega
  | ⟨2, _⟩ => show win0_1.index t (2 : Fin 3) * 2048 + 1 * p.val = p.val; omega

/-- What point t leaves in the output window, at (0, d, n): the specification's value at batch t / 4, row
    512 (t % 4) + n and feature d of the argument. -/
theorem outBlk_apply (c : Dev nD) (t : Fin cfg0.N) (d : Fin 8) (n : Fin 512) (hb : t.val / 4 < 4)
    (hn : 512 * (t.val % 4) + n.val < 2048) :
    outBlk (F := Ideal) m c t (ix3 (0 : Fin 1) d n)
      = Cert.SoftRank.rankAt (m ((c : Thread nD τ).loc main_arg0) : Cert.SoftRank.SX.Idx → EReal)
          ⟨t.val / 4, hb⟩ ⟨512 * (t.val % 4) + n.val, hn⟩ d := by
  unfold outBlk
  refine (outOf_apply c _ _ _ _ _ _ _ (iblk m c 0 t) (iblk m c 1 t) d n).trans ?_
  unfold Cert.SoftRank.rankAt Cert.SoftRank.pair
  refine congrArg (· * weight) (Finset.sum_congr rfl fun p _ => ?_)
  refine congrArg Ideal.logistic (congrArg (scale * ·) ?_)
  exact congrArg₂ (· - ·) (iblk0_apply m c t d n hb hn) (iblk1_apply m c t d p hb)

/-! ## From blocks to the array -/

/-- The array the region leaves, as a function of the argument: at (b, d, n) the specification's value at
    (b, n, d). -/
abbrev Gout (x : Cert.SoftRank.SX.Idx → EReal) : S4x8x2048.Idx → EReal :=
  fun j => Cert.SoftRank.rankAt x (j 0) (j 2) (j 1)

/-- What point t writes back is block t of that array. -/
theorem flushed_eq (c : Dev nD) (t : Fin cfg0.N) :
    (dats (F := Ideal) m 0 c).flushed 2 t
      = ((cfg0.win 2).blk t).view.read (Elt Ideal) (Gout (m ((c : Thread nD τ).loc main_arg0))) := by
  show (cfg0.win 2).cut (grid0.coords t) ((dats m 0 c).after 2 t) = _
  rw [after0_2]
  obtain ⟨-, -, -, -, -, -, e0, e1, e2, ht⟩ := idx_facts t
  funext y
  obtain ⟨u, d, n, rfl⟩ : ∃ (u : Fin 1) (d : Fin 8) (n : Fin 512), y = ix3 u d n := ⟨y 0, y 1, y 2, eq_ix3 y⟩
  obtain rfl : u = 0 := Subsingleton.elim _ _
  have hn : n.val < 512 := n.isLt
  have hb : t.val / 4 < 4 := by omega
  have hn' : 512 * (t.val % 4) + n.val < 2048 := by omega
  refine (outBlk_apply m c t d n hb hn').trans ?_
  show _ = Gout (m ((c : Thread nD τ).loc main_arg0)) (((cfg0.win 2).blk t).view.emb (ix3 (0 : Fin 1) d n))
  have he : (((cfg0.win 2).blk t).view.emb (ix3 (0 : Fin 1) d n) : S4x8x2048.Idx)
      = ix3 (⟨t.val / 4, hb⟩ : Fin 4) d (⟨512 * (t.val % 4) + n.val, hn'⟩ : Fin 2048) := by
    funext a; apply Fin.ext
    match a with
    | ⟨0, _⟩ => show win0_2.index t (0 : Fin 3) * 1 + 1 * 0 = t.val / 4; omega
    | ⟨1, _⟩ => show win0_2.index t (1 : Fin 3) * 8 + 1 * d.val = d.val; omega
    | ⟨2, _⟩ => show win0_2.index t (2 : Fin 3) * 512 + 1 * n.val = 512 * (t.val % 4) + n.val; omega
  rw [he]

/-- An index of the array is in point t's output block iff each coordinate is in the block's range on its axis. -/
theorem mem_blk (t : Fin cfg0.N) (i : S4x8x2048.Idx) :
    i ∈ ((cfg0.win 2).blk t).view.set ↔ ∀ a : Fin 3, win0_2.index t a * S1x8x512.size a ≤ (i a).val
      ∧ (i a).val < win0_2.index t a * S1x8x512.size a + S1x8x512.size a := by
  show i ∈ ((View.whole main_v1).slice (win0_2.rect t)).set ↔ _
  rw [View.set_slice_whole, Rect.mem_set_unit]
  exact Iff.rfl

/-- Every index (b, d, n) of the array is in the output block of the point 4 b + n / 512, and every point writes
    its block back. -/
theorem cover (i : S4x8x2048.Idx) :
    ∃ t : Fin cfg0.N, (cfg0.win 2).flush t = true ∧ i ∈ ((cfg0.win 2).blk t).view.set := by
  have h0 : (i 0).val < 4 := (i 0).isLt
  have h1 : (i 1).val < 8 := (i 1).isLt
  have h2 : (i 2).val < 2048 := (i 2).isLt
  have hN : 4 * (i 0).val + (i 2).val / 512 < cfg0.N := by
    show 4 * (i 0).val + (i 2).val / 512 < grid0.N
    rw [N_0]; omega
  obtain ⟨-, -, -, -, -, -, e0, e1, e2, -⟩ := idx_facts ⟨4 * (i 0).val + (i 2).val / 512, hN⟩
  have e0' : win0_2.index ⟨4 * (i 0).val + (i 2).val / 512, hN⟩ (0 : Fin 3) = (4 * (i 0).val + (i 2).val / 512) / 4 := e0
  have e2' : win0_2.index ⟨4 * (i 0).val + (i 2).val / 512, hN⟩ (2 : Fin 3) = (4 * (i 0).val + (i 2).val / 512) % 4 := e2
  refine ⟨⟨4 * (i 0).val + (i 2).val / 512, hN⟩, flush0_2 _, ?_⟩
  rw [mem_blk]
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 8 ≤ (i 1).val ∧ (i 1).val < win0_2.index _ (1 : Fin 3) * 8 + 8
    omega
  | ⟨2, _⟩ =>
    show win0_2.index _ (2 : Fin 3) * 512 ≤ (i 2).val ∧ (i 2).val < win0_2.index _ (2 : Fin 3) * 512 + 512
    omega

/-- THE ARRAY AFTER THE REGION: the specification's values, transposed, of the launch argument. -/
theorem arrAt_final (c : Dev nD) :
    (dats (F := Ideal) m 0 c).arrAt 2 cfg0.N = Gout (m ((c : Thread nD τ).loc main_arg0)) :=
  (dats (F := Ideal) m 0 c).arrAt_eq_of_cover 2 (Gout (m ((c : Thread nD τ).loc main_arg0)))
    (fun t _ => flushed_eq m c t) cover

end Blocks

end Cert.KernelIdeal.Hand

end
-- ==== Proof.FinalIdeal.lean ====
import proofs.«115747_j37194416783875_2_alg».proof.Proof.Gen.KernelIdeal.Loops
import proofs.«115747_j37194416783875_2_alg».proof.Proof.Gen.KernelIdeal.Points
import proofs.«115747_j37194416783875_2_alg».proof.Proof.Gen.KernelIdeal.Launch
import proofs.«115747_j37194416783875_2_alg».proof.Proof.RunIdeal
import proofs.«115747_j37194416783875_2_alg».proof.Proof.ValueIdeal
import Idealize.ShloMosaic.Lib.ValueLayout
import Idealize.ShloMosaic.Lib.ValueIdx
import Idealize.ShloMosaic.Lib.StableHlo.Run
import Idealize.ShloMosaic.Lib.Tactic
import Idealize.ShloMosaic.Lib.Pipeline.Frame
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The program's result buffer

The one host operation after the region transposes the kernel's result array [4, 8, 2048] back to [4, 2048, 8]. The
result array holds at (b, d, n) the specification's value at (b, n, d), so the result buffer holds at (b, n, d) the
specification's value there. -/

/-- The result buffer at the end is the transpose of the kernel's result array. -/
theorem V3_main_v2 (m : (ℓ : Loc nD τ sig) → Buf (Elt F) ℓ) (c : Dev nD) :
    (V3 m c main_v2 : S4x2048x8.Idx → Elt F .f32) = transpose S4x2048x8 [0, 2, 1] (outArr m c) Facts₀.transposes_S4x8x2048_S4x2048x8_0_2_1 := by
  have e : (V3 m c main_v2 : S4x2048x8.Idx → Elt F .f32) = transpose S4x2048x8 [0, 2, 1] (V2 m c main_v1) Facts₀.transposes_S4x8x2048_S4x2048x8_0_2_1 := by
    show StableHlo.after hostOps1 (V2 m c) (Proc.devRef .tc main_v2) = _
    after_results
  rw [e, V2_main_v1]

/-- At the ideal instance the result buffer is the specification's function of the launch argument. -/
theorem result_eq (m : (ℓ : Loc nD τ sig) → Buf (Elt Ideal) ℓ) (c : Dev nD) :
    V3 (F := Ideal) m c main_v2 = Cert.SoftRank.rank (m ((c : Thread nD τ).loc main_arg0)) := by
  show (V3 (F := Ideal) m c main_v2 : S4x2048x8.Idx → EReal) = _
  rw [V3_main_v2]
  funext j
  obtain ⟨b, n, d, rfl⟩ : ∃ (b : Fin 4) (n : Fin 2048) (d : Fin 8), j = ix3 b n d := ⟨j 0, j 1, j 2, eq_ix3 j⟩
  rw [transpose_ix3_021_apply]
  unfold outArr
  rw [arrAt_final]
  rfl

end Cert.KernelIdeal.Hand

end
-- ==== Proof.lean ====
/-
  The certificate's five claims for the pairwise soft-rank kernel against its reference.

  Both programs compute, for x of shape [4, 2048, 8] over the extended reals,

      r[b, n, d] = ( Σ_{i < 2048} σ(1000 · (x[b, n, d] − x[b, i, d])) ) · 2⁻¹¹ ,     σ(z) = 1 / (1 + e^{−z})

  (Proof/Spec.lean). The kernel program transposes x to [4, 8, 2048], hands that one array to the kernel as the query
  window (tiles of 512 columns) and as the key window (a whole row of 2048 columns per batch), accumulates each tile's
  sum in eight chunks of 256 and scales by 2⁻¹¹, and transposes the result back; the reference forms all 2048
  comparisons at once, sums them from zero and divides by 2048. The sums agree because addition of extended reals is
  commutative and associative; dividing by the real 2048 is multiplying by the real 1/2048, at the infinities too; and
  the logistic is one expression on both sides. No step needs an entry of x to be finite, so the precondition is
  carried and never opened.

  The frames: each kernel program runs as a host stretch, the region, a host stretch; the input array the two windows
  share enters the region split into the two halves of its full share and leaves it joined back, unchanged, and
  neither transpose nor the region writes the argument. The reference's frame is its generated run with the result
  dropped. The idealization rewrote nothing, so there is nothing to preserve.
-/
import proofs.«115747_j37194416783875_2_alg».proof.Defs
import proofs.«115747_j37194416783875_2_alg».proof.Proof.Gen.Kernel
import proofs.«115747_j37194416783875_2_alg».proof.Proof.Gen.KernelIdeal
import proofs.«115747_j37194416783875_2_alg».proof.Proof.Gen.ReferenceIdeal
import proofs.«115747_j37194416783875_2_alg».proof.Proof.Gen.Pre_finite_inputs
import proofs.«115747_j37194416783875_2_alg».proof.Proof.Gen.ReferenceIdeal.Run
import proofs.«115747_j37194416783875_2_alg».proof.Proof.Gen.ReferenceIdeal.Read
import proofs.«115747_j37194416783875_2_alg».proof.Proof.RunBits
import proofs.«115747_j37194416783875_2_alg».proof.Proof.RunIdeal
import proofs.«115747_j37194416783875_2_alg».proof.Proof.RefBridge
import proofs.«115747_j37194416783875_2_alg».proof.Proof.FinalIdeal

noncomputable section

namespace Cert.Proof

open Idealize.ShloMosaic Idealize.ShloMosaic.TcCoe Idealize.SL.Sem

/-! ## The three frames

Each kernel program's run, read at its argument; the reference's generated run with the result dropped. -/

theorem frame_k [Cert.Kernel.Facts] [Cert.Pre_finite_inputs.Facts] : Cert.frame_Kernel := fun m ρ _ =>
  (θ_run Cert.Kernel.defs _ _).mono (fun _ h c => (h c).2) (Cert.Kernel.Hand.run_main (F := Bits) m ρ)

theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run_main (F := Ideal) m ρ)

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct to prove. -/
theorem preserves : Cert.preserves_Kernel_KernelIdeal := trivial

/-! ## Equal results -/

/-- From memories agreeing on the argument both idealized programs run, and both end with the result buffer at
    rank of the argument: the kernel program by its run and the value of its result buffer, the reference by its generated run read one
    operation at a time. The precondition is not used: no law on the way needs a finite entry. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.SoftRank.rank (m ((c.tc : Thread Cert.KernelIdeal.nD Cert.KernelIdeal.τ).loc Cert.KernelIdeal.main_arg0)), ?_, ?_⟩
  · exact (θ_run Cert.KernelIdeal.defs _ _).mono (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [hagree c]
    exact (Cert.ReferenceIdeal.Read.val_main_v15_eq _).trans (Cert.SoftRank.Ref.ref_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
